-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x32 : Shape := ⟨2, ![1048576, 32]⟩
abbrev S128x32 : Shape := ⟨2, ![128, 32]⟩
abbrev S128 : Shape := ⟨1, ![128]⟩
abbrev S_ : Shape := ⟨0, ![]⟩

class Facts : Prop where
  bcast_S_S1048576x32 : S_.BroadcastsInDim S1048576x32 (![] : Fin 0 → Fin S1048576x32.rank)
  reducesTo_S1048576x32_S_d0_1 : S1048576x32.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S1048576x32 .f32) (main_arg1 : FVec F S128x32 .f32) (main_arg2 : FVec F S128 .f32) : IVec S_ 1 :=
  let main_v0 : FVec F S1048576x32 .f32 := Host.absf main_arg0
  let main_cst : FVec F S_ .f32 := constant S_ .f32 0x7F800000#32
  let main_v1 : FVec F S1048576x32 .f32 := broadcastInDim S1048576x32 ![] bcast_S_S1048576x32 main_cst
  let main_v2 : IVec S1048576x32 1 := cmpf .olt main_v0 main_v1
  let main_c : IVec S_ 1 := constantI S_ 1 1#1
  let main_v3 : IVec S_ 1 := (fun x v => Host.reduce IntOp.andi x v reducesTo_S1048576x32_S_d0_1 h_S_) main_v2 main_c
  let main_v4 : FVec F S128x32 .f32 := Host.absf main_arg1
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S1048576x32 : Shape := ⟨2, ![1048576, 32]⟩
abbrev S128x32 : Shape := ⟨2, ![128, 32]⟩
abbrev S128 : Shape := ⟨1, ![128]⟩
abbrev S32x128 : Shape := ⟨2, ![32, 128]⟩
abbrev S_ : Shape := ⟨0, ![]⟩
abbrev S1x128 : Shape := ⟨2, ![1, 128]⟩
abbrev S1048576x128 : Shape := ⟨2, ![1048576, 128]⟩
abbrev S8192x32 : Shape := ⟨2, ![8192, 32]⟩
abbrev S8192x128 : Shape := ⟨2, ![8192, 128]⟩
abbrev S8192 : Shape := ⟨1, ![8192]⟩
abbrev S8192x1 : Shape := ⟨2, ![8192, 1]⟩

abbrev nBuf : Space → Nat
  | .hbm => 14
  | .vmem => 7
  | .smem => 0
  | _ => 0

abbrev bufTy : (tb : Table) → Fin (tcTables nBuf tb) → BufTy
  | .hbm, ⟨0, _⟩ => ⟨S1048576x32, .f32⟩
  | .hbm, ⟨1, _⟩ => ⟨S128x32, .f32⟩
  | .hbm, ⟨2, _⟩ => ⟨S128, .f32⟩
  | .hbm, ⟨3, _⟩ => ⟨S32x128, .f32⟩
  | .hbm, ⟨4, _⟩ => ⟨S128x32, .f32⟩
  | .hbm, ⟨5, _⟩ => ⟨S_, .f32⟩
  | .hbm, ⟨6, _⟩ => ⟨S128, .f32⟩
  | .hbm, ⟨7, _⟩ => ⟨S1x128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S1x128, .f32⟩
  | .hbm, ⟨13, _⟩ => ⟨S1048576x128, .f32⟩
  | .local _ .vmem, ⟨0, _⟩ => ⟨S8192x32, .f32⟩
  | .local _ .vmem, ⟨1, _⟩ => ⟨S8192x32, .f32⟩
  | .local _ .vmem, ⟨2, _⟩ => ⟨S32x128, .f32⟩
  | .local _ .vmem, ⟨3, _⟩ => ⟨S1x128, .f32⟩
  | .local _ .vmem, ⟨4, _⟩ => ⟨S1x128, .f32⟩
  | .local _ .vmem, ⟨5, _⟩ => ⟨S8192x128, .f32⟩
  | .local _ .vmem, ⟨6, _⟩ => ⟨S8192x128, .f32⟩
  | _, _ => ⟨S1048576x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S128x32_S32x128_1_0 : S128x32.Transposes [1, 0] S32x128
  reducesTo_S128x32_S128_d1 : S128x32.ReducesTo [1] S128
  h_S_ : 0 < S_.numel
  shapeCasts_S128_S1x128 : S128.ShapeCasts S1x128
  bcast_S_S128 : S_.BroadcastsInDim S128 (![] : Fin 0 → Fin S128.rank)
  inb_S8192x32_S8192x32_0_0 : ∀ a, (![0, 0] : Fin 2 → Nat) a + S8192x32.size a ≤ S8192x32.size a
  h_S8192x32 : 0 < S8192x32.numel
  reduces_S8192x32_S8192 : S8192x32.Reduces [1] S8192
  shapeCasts_S8192_S8192x1 : S8192.ShapeCasts S8192x1
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S8192x1_S8192x128 : S8192x1.Broadcasts S8192x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  dot_S8192x32_S32x128_S8192x128_1_0_0_1_n_n_wf : DotDims.WF S8192x32 S32x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x32.size a ≤ S1048576x32.size a
  hwx0_0 : ∀ i : grid0.Coords, EltTy.bits .f32 = 32 ∨ (Rect.block (s := S1048576x32) S8192x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8192x128.size a ≤ S1048576x128.size a
  hwx0_4 : ∀ i : grid0.Coords, EltTy.bits .f32 = 32 ∨ (Rect.block (s := S1048576x128) S8192x128.size (cc0_transform_4 i) (hinb0_4 i)).WholeWords (EltTy.packing .f32)

variable [Facts₀]

def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf

abbrev win0_0 : Pipeline.Window sig grid0 :=
  Pipeline.Window.ofSpec (Memref.whole main_arg0) S8192x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S8192x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x32 : Shape := ⟨2, ![1048576, 32]⟩
abbrev S128x32 : Shape := ⟨2, ![128, 32]⟩
abbrev S128 : Shape := ⟨1, ![128]⟩
abbrev S_ : Shape := ⟨0, ![]⟩
abbrev S1048576 : Shape := ⟨1, ![1048576]⟩
abbrev S1048576x1 : Shape := ⟨2, ![1048576, 1]⟩
abbrev S1048576x128 : Shape := ⟨2, ![1048576, 128]⟩
abbrev S1x128 : Shape := ⟨2, ![1, 128]⟩

abbrev nBuf : Space → Nat
  | .hbm => 31
  | .vmem => 0
  | .smem => 0
  | _ => 0

abbrev bufTy : (tb : Table) → Fin (tcTables nBuf tb) → BufTy
  | .hbm, ⟨0, _⟩ => ⟨S1048576x32, .f32⟩
  | .hbm, ⟨1, _⟩ => ⟨S128x32, .f32⟩
  | .hbm, ⟨2, _⟩ => ⟨S128, .f32⟩
  | .hbm, ⟨3, _⟩ => ⟨S1048576x32, .f32⟩
  | .hbm, ⟨4, _⟩ => ⟨S_, .f32⟩
  | .hbm, ⟨5, _⟩ => ⟨S1048576, .f32⟩
  | .hbm, ⟨6, _⟩ => ⟨S1048576x1, .f32⟩
  | .hbm, ⟨7, _⟩ => ⟨S128x32, .f32⟩
  | .hbm, ⟨8, _⟩ => ⟨S_, .f32⟩
  | .hbm, ⟨9, _⟩ => ⟨S128, .f32⟩
  | .hbm, ⟨10, _⟩ => ⟨S1048576x128, .f32⟩
  | .hbm, ⟨11, _⟩ => ⟨S_, .f32⟩
  | .hbm, ⟨12, _⟩ => ⟨S1048576x128, .f32⟩
  | .hbm, ⟨13, _⟩ => ⟨S1048576x128, .f32⟩
  | .hbm, ⟨14, _⟩ => ⟨S1048576x128, .f32⟩
  | .hbm, ⟨15, _⟩ => ⟨S1048576x128, .f32⟩
  | .hbm, ⟨16, _⟩ => ⟨S1x128, .f32⟩
  | .hbm, ⟨17, _⟩ => ⟨S1048576x128, .f32⟩
  | .hbm, ⟨18, _⟩ => ⟨S1048576x128, .f32⟩
  | .hbm, ⟨19, _⟩ => ⟨S_, .f32⟩
  | .hbm, ⟨20, _⟩ => ⟨S1048576x128, .f32⟩
  | .hbm, ⟨21, _⟩ => ⟨S1048576x128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1048576x128, .f32⟩
  | .hbm, ⟨27, _⟩ => ⟨S1x128, .f32⟩
  | .hbm, ⟨28, _⟩ => ⟨S1048576x128, .f32⟩
  | .hbm, ⟨29, _⟩ => ⟨S1048576x128, .f32⟩
  | .hbm, ⟨30, _⟩ => ⟨S1048576x128, .f32⟩
  | _, _ => ⟨S1048576x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S1048576x32_S1048576_d1 : S1048576x32.ReducesTo [1] S1048576
  h_S_ : 0 < S_.numel
  bcast_S1048576_S1048576x1_0 : S1048576.BroadcastsInDim S1048576x1 (![0] : Fin 1 → Fin S1048576x1.rank)
  reducesTo_S128x32_S128_d1 : S128x32.ReducesTo [1] S128
  bcast_S_S1048576x128 : S_.BroadcastsInDim S1048576x128 (![] : Fin 0 → Fin S1048576x128.rank)
  bcast_S1048576x1_S1048576x128_0_1 : S1048576x1.BroadcastsInDim S1048576x128 (![0, 1] : Fin 2 → Fin S1048576x128.rank)
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S128 : S_.BroadcastsInDim S128 (![] : Fin 0 → Fin S128.rank)
  dot_S1048576x32_S128x32_S1048576x128_1_1_0_0_n_n_wf : DotDims.WF S1048576x32 S128x32 S1048576x128 [1] [1] [0] [0] [] []

variable [Facts₀]

def dot_S1048576x32_S128x32_S1048576x128_1_1_0_0_n_n : DotDims S1048576x32 S128x32 S1048576x128 where
  lhsContracting := [1]
  rhsContracting := [1]
  lhsNonContracting := [0]
  rhsNonContracting := [0]
  lhsBatch := []
  rhsBatch := []
  wf := dot_S1048576x32_S128x32_S1048576x128_1_1_0_0_n_n_wf

class Facts : Prop extends Facts₀ where

variable [Facts]
-- ==== Proof.RbfSpec.lean ====
/-
  The radial-basis layer as one function of its three argument arrays, index by index on the extended reals.
  For a sample row `n` and a centre `o` the squared distance is expanded as
      ‖x_n‖² − 2·⟨x_n, c_o⟩ + ‖c_o‖²        (three sums over the 32 features),
  grouped `(‖x_n‖² − 2·⟨x_n, c_o⟩) + ‖c_o‖²`, clamped below at `0`, negated, multiplied by the inverse variance
  `exp(−2·log σ_o)` and exponentiated. The two literals `2.0` and `−2.0` are kept as their f32 words: both
  programs carry the same words, so their values are never needed.
-/
import Idealize.ShloMosaic.PureOps.Ideal
import Idealize.ShloMosaic.Lib.ValueIdx

noncomputable section

open scoped BigOperators

namespace Cert.Rbf

open Idealize.ShloMosaic Idealize.ShloMosaic.ValueIdx

/-- `‖x_n‖² − 2·⟨x_n, c_o⟩ + ‖c_o‖²`, each norm and the inner product a sum over the 32 features. -/
def sqdist (x : FVec Ideal ⟨2, ![1048576, 32]⟩ .f32) (c : FVec Ideal ⟨2, ![128, 32]⟩ .f32)
    (n : Fin 1048576) (o : Fin 128) : EReal :=
  ((∑ k : Fin 32, x (ix2 n k) * x (ix2 n k))
      - Ideal.ofBits .f32 0x40000000#32 * ∑ k : Fin 32, x (ix2 n k) * c (ix2 o k))
    + ∑ k : Fin 32, c (ix2 o k) * c (ix2 o k)

/-- The inverse variance of centre `o`: `exp(−2·log σ_o)`. -/
def invVar (s : FVec Ideal ⟨1, ![128]⟩ .f32) (o : Fin 128) : EReal :=
  Ideal.exp (Ideal.ofBits .f32 0xC0000000#32 * s (ix1 o))

/-- The layer's output for sample `n` and centre `o`: `exp(−max(sqdist, 0) · invVar)`. -/
def rbfAt (x : FVec Ideal ⟨2, ![1048576, 32]⟩ .f32) (c : FVec Ideal ⟨2, ![128, 32]⟩ .f32)
    (s : FVec Ideal ⟨1, ![128]⟩ .f32) (n : Fin 1048576) (o : Fin 128) : EReal :=
  Ideal.exp (-(max (sqdist x c n o) 0) * invVar s o)

/-- The whole output array. -/
def rbf (x : FVec Ideal ⟨2, ![1048576, 32]⟩ .f32) (c : FVec Ideal ⟨2, ![128, 32]⟩ .f32)
    (s : FVec Ideal ⟨1, ![128]⟩ .f32) : FVec Ideal ⟨2, ![1048576, 128]⟩ .f32 :=
  fun i => rbfAt x c s (i 0) (i 1)

theorem rbf_ix2 (x : FVec Ideal ⟨2, ![1048576, 32]⟩ .f32) (c : FVec Ideal ⟨2, ![128, 32]⟩ .f32)
    (s : FVec Ideal ⟨1, ![128]⟩ .f32) (n : Fin 1048576) (o : Fin 128) :
    rbf x c s (ix2 n o) = rbfAt x c s n o := rfl

end Cert.Rbf

end
-- ==== Proof.RefIsRbf.lean ====
/-
  The reference program's result is the radial-basis function `Cert.Rbf.rbf` of its arguments.
  Read at sample `n` and centre `o`, every stage of the reference is an elementwise operation or a re-layout of the
  stage before it, except three sums over the 32 features: the row norm ‖x_n‖² (a sum of row `n` of `x·x`, kept as a
  column and broadcast over the centres), the centre norm ‖c_o‖² (a sum of row `o` of `c·c`, laid as a row and
  broadcast over the samples) and the inner product ⟨x_n, c_o⟩ (the contraction of the two feature axes). Each sum
  starts from the zero word, which is the extended real `0`, and the negation is the extended reals' own.
-/
import proofs.«165748_j84808424227154_2_alg».proof.Proof.Gen.ReferenceIdeal.Read
import proofs.«165748_j84808424227154_2_alg».proof.Proof.RbfSpec
import Idealize.ShloMosaic.PureOps.Ideal.Laws

noncomputable section

open scoped BigOperators

namespace Cert.ReferenceIdeal.RefValue

open Cert.ReferenceIdeal Cert.ReferenceIdeal.Gen Cert.ReferenceIdeal.Read
open Idealize.ShloMosaic Idealize.ShloMosaic.ValueIdx

/-! The reference's composed index maps, at sample `n`, centre `o` and feature `k`. -/

theorem idx_xnorm (n : Fin 1048576) (o : Fin 128) (k : Fin 32) :
    idx_main_v1 (idx_main_v2 (idx_main_v8 (ix2 n o))) k = ix2 n k :=
  funext fun a => Fin.ext (by match a with | ⟨0, _⟩ => rfl | ⟨1, _⟩ => rfl)

theorem idx_cnorm (n : Fin 1048576) (o : Fin 128) (k : Fin 32) :
    idx_main_v4 (idx_main_v10 (idx_main_v11 (ix2 n o))) k = ix2 o k :=
  funext fun a => Fin.ext (by match a with | ⟨0, _⟩ => rfl | ⟨1, _⟩ => rfl)

theorem idx_cross_l (n : Fin 1048576) (o : Fin 128) (k : Fin 32) :
    lidx_main_v5 (ix2 n o) k = ix2 n k :=
  funext fun a => Fin.ext (by match a with | ⟨0, _⟩ => rfl | ⟨1, _⟩ => rfl)

theorem idx_cross_r (n : Fin 1048576) (o : Fin 128) (k : Fin 32) :
    ridx_main_v5 (ix2 n o) k = ix2 o k :=
  funext fun a => Fin.ext (by match a with | ⟨0, _⟩ => rfl | ⟨1, _⟩ => rfl)

theorem idx_sigma (n : Fin 1048576) (o : Fin 128) :
    idx_main_v19 (idx_main_v20 (ix2 n o)) = ix1 o :=
  funext fun a => Fin.ext (by match a with | ⟨0, _⟩ => rfl)

/-- The reference's last stage, as a function of the three arguments, is `rbf`. -/
theorem ref_eq (x0 : (⟨S1048576x32, .f32⟩ : BufTy).Contents (Elt Ideal)) (x1 : (⟨S128x32, .f32⟩ : BufTy).Contents (Elt Ideal))
    (x2 : (⟨S128, .f32⟩ : BufTy).Contents (Elt Ideal)) :
    val_main_v22 (F := Ideal) x0 x1 x2 = Cert.Rbf.rbf x0 x1 x2 := by
  funext i
  obtain ⟨n, o, rfl⟩ : ∃ (n : Fin 1048576) (o : Fin 128), i = ix2 n o := ⟨i 0, i 1, eq_ix2 i⟩
  rw [Cert.Rbf.rbf_ix2, val_main_v22_apply, val_main_v21_apply, val_main_v18_apply, val_main_v14_apply, val_main_v12_apply,
    val_main_v9_apply, val_main_v8_apply, val_main_v2_apply, val_main_v1_apply, val_main_v7_apply, val_main_v6_apply,
    val_main_v5_apply, val_main_v11_apply, val_main_v10_apply, val_main_v4_apply, val_main_v13_apply, val_main_v20_apply,
    val_main_v19_apply, val_main_v17_apply, val_main_v16_apply, val_main_v15_apply]
  simp only [val_main_v0_apply, val_main_v3_apply, val_main_cst_apply, val_main_cst_0_apply, val_main_cst_1_apply,
    val_main_cst_2_apply, val_main_cst_3_apply, idx_xnorm, idx_cnorm, idx_cross_l, idx_cross_r, idx_sigma,
    Ideal.ofBits_def, Ideal.addf_def, Ideal.subf_def, Ideal.mulf_def, Ideal.maximumf_def, Ideal.hostNegf_def, Ideal.negf_def,
    Ideal.hostUnary_exp_def, Ideal.ofBits_zero_f32, zero_add]
  rfl

end Cert.ReferenceIdeal.RefValue

end
-- ==== Proof.LibKeepdims.lean ====
/-
  Two layout operations read at an index given by coordinates, for the column that a sum over the LAST axis with
  `keepdims=True` leaves: a vector `[a]` re-shaped to a column `[a, 1]`, and a column `[a, 1]` broadcast along its
  unit axis to a matrix `[a, b]`. (The row forms `[a] → [1, a]` and `[1, b] → [a, b]` are in the library's
  Lib/ValueLayout.lean; these are their transposes, for any extents and any element type.)
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to a column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is kept
    (also when `a = 1`, where it can only be `0`), the coordinate on the unit axis is `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelPayload.lean ====
/-
  The kernel body's one stored value, read at row `p` and centre `q` of its block, on the extended reals.
  The body loads a block `X` of 8192 sample rows, the whole transposed centre matrix `T` (32 × 128), the row `C` of
  centre norms and the row `W` of inverse variances, and stores
      exp( (0 − max( (‖X_p‖² − 2·(X·T)_{p,q}) + C_q , 0 )) · W_q ).
  Its non-pointwise pieces are read one at a time: the row norm is a sum along the feature axis kept as a column and
  broadcast over the centres; the product with `T` into a zero accumulator is the sum over the contracted feature
  axis; the rows `C` and `W` are broadcast over the samples. `0 − y` is `−y` on the extended reals.
-/
import proofs.«165748_j84808424227154_2_alg».proof.Proof.Gen.KernelIdeal.Skeleton
import proofs.«165748_j84808424227154_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KValue

open Cert.KernelIdeal Cert.KernelIdeal.Gen
open Idealize.ShloMosaic Idealize.ShloMosaic.ValueIdx

/-- The row norms of the block, as the body lays them: summed along the features, kept as a column, broadcast. -/
def rowNorm (X : FVec Ideal S8192x32 .f32) : FVec Ideal S8192x128 .f32 :=
  broadcastTo S8192x128
    (shapeCast S8192x1 (multiReduction (F := Ideal) .add [1] S8192 (mulf X X) 0x00000000#32 reduces_S8192x32_S8192 (.inl rfl) rfl)
      shapeCasts_S8192_S8192x1)
    broadcasts_S8192x1_S8192x128

/-- The block's product with the transposed centres, into a zero accumulator. -/
def crossTerm (X : FVec Ideal S8192x32 .f32) (T : FVec Ideal S32x128 .f32) : FVec Ideal S8192x128 .f32 :=
  matmul dot_S8192x32_S32x128_S8192x128_1_0_0_1_n_n (some .fp32) X (shapeCast S32x128 T shapeCasts_S32x128_S32x128)
    (constant (F := Ideal) S8192x128 .f32 0x00000000#32)

/-- A row of 128 per-centre values broadcast over the block's samples. -/
def overRows (R : FVec Ideal S1x128 .f32) : FVec Ideal S8192x128 .f32 :=
  broadcastTo S8192x128 (shapeCast S1x128 R shapeCasts_S1x128_S1x128) broadcasts_S1x128_S8192x128

/-- The stored value is the pointwise combination of those pieces. -/
theorem pay_eq (X : Vec Ideal S8192x32 .f32) (T : Vec Ideal S32x128 .f32) (C W : Vec Ideal S1x128 .f32) :
    k0_pay1 (F := Ideal) X T C W = fun j =>
      Ideal.exp ((Ideal.ofBits .f32 0x00000000#32
          - max ((rowNorm X j - Ideal.ofBits .f32 0x40000000#32 * crossTerm X T j) + overRows C j) (Ideal.ofBits .f32 0x00000000#32))
        * overRows W j) := rfl

/-- The row norm at `(p, q)` is the sum of squares of row `p`. -/
theorem rowNorm_apply (X : FVec Ideal S8192x32 .f32) (p : Fin 8192) (q : Fin 128) :
    rowNorm X (ix2 p q) = ∑ k : Fin 32, X (ix2 p k) * X (ix2 p k) := by
  unfold rowNorm
  refine (Cert.LibKeepdims.broadcastTo_a1_ab_apply _ _ p q).trans ?_
  refine (Cert.LibKeepdims.shapeCast_a_a1_apply _ _ p (0 : Fin 1)).trans ?_
  refine (Ideal.multiReduction_add_single _ _ _ _ _ (ix1 p)).trans ?_
  refine Finset.sum_congr rfl fun (k : Fin 32) _ => ?_
  show X _ * X _ = _
  have e : reduces_S8192x32_S8192.lift (ix1 p) k = ix2 p k :=
    funext fun a => Fin.ext (by match a with | ⟨0, _⟩ => rfl | ⟨1, _⟩ => rfl)
  rw [e]

theorem lhs_row (i : S8192x128.Idx) (r : dot_S8192x32_S32x128_S8192x128_1_0_0_1_n_n.contr.Idx) :
    (dot_S8192x32_S32x128_S8192x128_1_0_0_1_n_n.lhsIdx i r 0).val = (i 0).val := by
  unfold DotDims.lhsIdx
  rw [dif_neg (show ¬(0 : Fin S8192x32.rank) ∈ dot_S8192x32_S32x128_S8192x128_1_0_0_1_n_n.lhsBatch by decide),
    dif_pos (show (0 : Fin S8192x32.rank) ∈ dot_S8192x32_S32x128_S8192x128_1_0_0_1_n_n.lhsNonContracting by decide)]
  rfl
theorem lhs_feat (i : S8192x128.Idx) (r : dot_S8192x32_S32x128_S8192x128_1_0_0_1_n_n.contr.Idx) :
    (dot_S8192x32_S32x128_S8192x128_1_0_0_1_n_n.lhsIdx i r 1).val = (r ⟨0, by decide⟩).val :=
  dot_S8192x32_S32x128_S8192x128_1_0_0_1_n_n.lhsIdx_val_of_single rfl i r
theorem rhs_feat (i : S8192x128.Idx) (r : dot_S8192x32_S32x128_S8192x128_1_0_0_1_n_n.contr.Idx) :
    (dot_S8192x32_S32x128_S8192x128_1_0_0_1_n_n.rhsIdx i r 0).val = (r ⟨0, by decide⟩).val :=
  dot_S8192x32_S32x128_S8192x128_1_0_0_1_n_n.rhsIdx_val_of_single rfl i r
theorem rhs_col (i : S8192x128.Idx) (r : dot_S8192x32_S32x128_S8192x128_1_0_0_1_n_n.contr.Idx) :
    (dot_S8192x32_S32x128_S8192x128_1_0_0_1_n_n.rhsIdx i r 1).val = (i 1).val := by
  unfold DotDims.rhsIdx
  rw [dif_neg (show ¬(1 : Fin S32x128.rank) ∈ dot_S8192x32_S32x128_S8192x128_1_0_0_1_n_n.rhsBatch by decide),
    dif_pos (show (1 : Fin S32x128.rank) ∈ dot_S8192x32_S32x128_S8192x128_1_0_0_1_n_n.rhsNonContracting by decide)]
  rfl

/-- The product at `(p, q)` is the inner product of row `p` of the block with column `q` of the transposed centres. -/
theorem crossTerm_apply (X : FVec Ideal S8192x32 .f32) (T : FVec Ideal S32x128 .f32) (p : Fin 8192) (q : Fin 128) :
    crossTerm X T (ix2 p q) = ∑ k : Fin 32, X (ix2 p k) * T (ix2 k q) := by
  unfold crossTerm
  rw [shapeCast_self]
  simp only [matmul]
  rw [Ideal.matmul_constant_zero_apply,
    ← Equiv.sum_comp (ValueIdx.contrEquiv1 dot_S8192x32_S32x128_S8192x128_1_0_0_1_n_n 32 rfl rfl).symm]
  refine Finset.sum_congr rfl fun k _ => ?_
  have hk := ValueIdx.contrEquiv1_symm_val dot_S8192x32_S32x128_S8192x128_1_0_0_1_n_n 32 rfl rfl k
  have el : dot_S8192x32_S32x128_S8192x128_1_0_0_1_n_n.lhsIdx (ix2 p q)
      ((ValueIdx.contrEquiv1 dot_S8192x32_S32x128_S8192x128_1_0_0_1_n_n 32 rfl rfl).symm k) = ix2 p k :=
    funext fun a => Fin.ext (by
      match a with
      | ⟨0, _⟩ => exact lhs_row _ _
      | ⟨1, _⟩ => exact (lhs_feat _ _).trans hk)
  have er : dot_S8192x32_S32x128_S8192x128_1_0_0_1_n_n.rhsIdx (ix2 p q)
      ((ValueIdx.contrEquiv1 dot_S8192x32_S32x128_S8192x128_1_0_0_1_n_n 32 rfl rfl).symm k) = ix2 k q :=
    funext fun a => Fin.ext (by
      match a with
      | ⟨0, _⟩ => exact (rhs_feat _ _).trans hk
      | ⟨1, _⟩ => exact rhs_col _ _)
  rw [el, er]

/-- A broadcast row at `(p, q)` is the row's entry `q`. -/
theorem overRows_apply (R : FVec Ideal S1x128 .f32) (p : Fin 8192) (q : Fin 128) :
    overRows R (ix2 p q) = R (ix2 (0 : Fin 1) q) := by
  unfold overRows
  rw [shapeCast_self]
  exact broadcastTo_1b_ab_apply R _ p q

/-- The stored value at row `p`, centre `q`. -/
theorem pay_apply (X : Vec Ideal S8192x32 .f32) (T : Vec Ideal S32x128 .f32) (C W : Vec Ideal S1x128 .f32)
    (p : Fin 8192) (q : Fin 128) :
    k0_pay1 (F := Ideal) X T C W (ix2 p q)
      = Ideal.exp (-(max (((∑ k : Fin 32, X (ix2 p k) * X (ix2 p k))
            - Ideal.ofBits .f32 0x40000000#32 * ∑ k : Fin 32, X (ix2 p k) * T (ix2 k q)) + C (ix2 (0 : Fin 1) q)) 0)
          * W (ix2 (0 : Fin 1) q)) := by
  rw [pay_eq]
  show Ideal.exp ((Ideal.ofBits .f32 0x00000000#32
          - max ((rowNorm X (ix2 p q) - Ideal.ofBits .f32 0x40000000#32 * crossTerm X T (ix2 p q)) + overRows C (ix2 p q)) (Ideal.ofBits .f32 0x00000000#32))
        * overRows W (ix2 p q)) = _
  rw [rowNorm_apply, crossTerm_apply, overRows_apply, overRows_apply, Ideal.ofBits_zero_f32, zero_sub]

end Cert.KernelIdeal.KValue

end
-- ==== Proof.HostGlue.lean ====
/-
  The three small arrays the host computes from the parameters before the kernel is launched, as the kernel's
  windows find them, read at an index:
    • the centres transposed: entry `(k, q)` is feature `k` of centre `q`;
    • the centre norms laid as one row: entry `(0, q)` is the sum of squares of centre `q`'s 32 features
      (the sum starts from the zero word, the extended real `0`);
    • the inverse variances laid as one row: entry `(0, q)` is `exp(−2 · log σ_q)`.
-/
import proofs.«165748_j84808424227154_2_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KValue

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ)

/-- The three argument arrays at launch, as arrays of extended reals. -/
abbrev samples (c : Dev nD) : FVec Ideal S1048576x32 .f32 := m ((c : Thread nD τ).loc main_arg0)
abbrev centres (c : Dev nD) : FVec Ideal S128x32 .f32 := m ((c : Thread nD τ).loc main_arg1)
abbrev logSigmas (c : Dev nD) : FVec Ideal S128 .f32 := m ((c : Thread nD τ).loc main_arg2)

/-- The three arrays the host prepares, as the kernel's windows find them. -/
abbrev centresT (c : Dev nD) : FVec Ideal S32x128 .f32 := V m c main_v0
abbrev centreNorms (c : Dev nD) : FVec Ideal S1x128 .f32 := V m c main_v3
abbrev invVars (c : Dev nD) : FVec Ideal S1x128 .f32 := V m c main_v7

/-- The transposed centres at `(k, q)`: feature `k` of centre `q`. -/
theorem centresT_apply (c : Dev nD) (k : Fin 32) (q : Fin 128) :
    centresT m c (ix2 k q) = centres m c (ix2 q k) := by
  have e : centresT m c = transpose S32x128 [1, 0] (centres m c) transposes_S128x32_S32x128_1_0 := by
    dsimp only [centresT, centres, Gen.V, Gen.hostOps0]; after_results; try rfl
  rw [e]
  exact transpose_ix2_apply _ _ k q

/-- The row of centre norms at `(0, q)`: the sum of squares of centre `q`. -/
theorem centreNorm_apply (c : Dev nD) (q : Fin 128) :
    centreNorms m c (ix2 (0 : Fin 1) q) = ∑ k : Fin 32, centres m c (ix2 q k) * centres m c (ix2 q k) := by
  have e : centreNorms m c
      = shapeCast S1x128 (Host.reduceAdd (F := Ideal) (mulf (centres m c) (centres m c))
          (constant (F := Ideal) S_ .f32 0x00000000#32) reducesTo_S128x32_S128_d1 h_S_) shapeCasts_S128_S1x128 := by
    dsimp only [centreNorms, centres, Gen.V, Gen.hostOps0]; after_results; try rfl
  rw [e]
  refine (shapeCast_a_1a_apply _ _ (0 : Fin 1) q).trans ?_
  generalize centres m c = a1
  simp only [Host.reduceAdd, Ideal.hostReduceAdd_def]
  rw [Ideal.hostReduceAdd_single reducesTo_S128x32_S128_d1 (by decide)]
  show Ideal.ofBits .f32 0x00000000#32 + _ = _
  rw [Ideal.ofBits_zero_f32, zero_add]
  refine Finset.sum_congr rfl fun (k : Fin 32) _ => ?_
  show a1 _ * a1 _ = _
  have e' : (by decide : S128x32.Reduces [1] S128).lift (ix1 q) k = ix2 q k :=
    funext fun a => Fin.ext (by match a with | ⟨0, _⟩ => rfl | ⟨1, _⟩ => rfl)
  rw [e']

/-- The row of inverse variances at `(0, q)`: `exp(−2 · log σ_q)`. -/
theorem invVar_apply (c : Dev nD) (q : Fin 128) :
    invVars m c (ix2 (0 : Fin 1) q) = Ideal.exp (Ideal.ofBits .f32 0xC0000000#32 * logSigmas m c (ix1 q)) := by
  have e : invVars m c
      = shapeCast S1x128 (Host.exp (F := Ideal)
          (mulf (broadcastInDim S128 ![] bcast_S_S128 (constant (F := Ideal) S_ .f32 0xC0000000#32)) (logSigmas m c)))
          shapeCasts_S128_S1x128 := by
    dsimp only [invVars, logSigmas, Gen.V, Gen.hostOps0]; after_results; try rfl
  rw [e]
  refine (shapeCast_a_1a_apply _ _ (0 : Fin 1) q).trans ?_
  show Ideal.exp (broadcastInDim S128 ![] bcast_S_S128 (constant (F := Ideal) S_ .f32 0xC0000000#32) (ix1 q) * _) = _
  rw [broadcastInDim_apply _ bcast_S_S128 _ (ix1 q) ix0 (fun a => a.elim0)]
  rfl

end Cert.KernelIdeal.KValue

end
-- ==== Proof.KernelArray.lean ====
/-
  From the kernel's blocks to its whole result array.
  The grid has 128 points. Point `t` takes rows `8192·t … 8192·t + 8191` of the samples, the whole transposed centre
  matrix and the two parameter rows, and writes back rows `8192·t … 8192·t + 8191` of the result. So the value the body
  stores at row `p`, centre `q` of its block is the radial-basis function at sample `8192·t + p` and centre `q`;
  the 128 row blocks are disjoint and fill the array (sample `n` lies in the block of point `n / 8192`), hence after the
  run the result array is the radial-basis function of the three argument arrays at every index.
-/
import proofs.«165748_j84808424227154_2_alg».proof.Proof.Gen.KernelIdeal.Value
import proofs.«165748_j84808424227154_2_alg».proof.Proof.RbfSpec
import proofs.«165748_j84808424227154_2_alg».proof.Proof.KernelPayload
import proofs.«165748_j84808424227154_2_alg».proof.Proof.HostGlue
import Idealize.ShloMosaic.Lib.Pipeline.Value
import Idealize.ShloMosaic.Lib.ValueIdx

noncomputable section

open scoped BigOperators

namespace Cert.KernelIdeal.KValue

open Cert.KernelIdeal Cert.KernelIdeal.Gen
open Idealize.ShloMosaic Idealize.ShloMosaic.TcCoe Idealize.SL.Sem Idealize.ShloMosaic.ValueIdx
open Idealize.ShloMosaic.Pipeline (Dat)

/-- ONE POINT, over plain vectors: if the sample block's row `p` is row `n` of the samples, the transposed-centre
    block's column `q` is centre `q`, and the two parameter rows hold centre `q`'s norm and inverse variance, then the
    stored value at `(p, q)` is the radial-basis function at `(n, q)`. -/
theorem point_eq (x : FVec Ideal ⟨2, ![1048576, 32]⟩ .f32) (a1 : FVec Ideal ⟨2, ![128, 32]⟩ .f32) (a2 : FVec Ideal ⟨1, ![128]⟩ .f32)
    (X : Vec Ideal S8192x32 .f32) (T : Vec Ideal S32x128 .f32) (C W : Vec Ideal S1x128 .f32)
    (n : Fin 1048576) (p : Fin 8192) (q : Fin 128)
    (hX : ∀ k : Fin 32, X (ix2 p k) = x (ix2 n k))
    (hT : ∀ k : Fin 32, T (ix2 k q) = a1 (ix2 q k))
    (hC : C (ix2 (0 : Fin 1) q) = ∑ k : Fin 32, a1 (ix2 q k) * a1 (ix2 q k))
    (hW : W (ix2 (0 : Fin 1) q) = Ideal.exp (Ideal.ofBits .f32 0xC0000000#32 * a2 (ix1 q))) :
    k0_pay1 (F := Ideal) X T C W (ix2 p q) = Cert.Rbf.rbfAt x a1 a2 n q := by
  rw [pay_apply, hC, hW]
  simp only [hX, hT]
  rfl

variable (m : (ℓ : Loc nD τ sig) → Buf (Elt Ideal) ℓ) (ρ : Dev nD → PrngReg)

theorem zeros2 : (![0, 0] : Fin 2 → Nat) = fun _ => 0 := funext fun a => by fin_cases a <;> rfl

/-- The printed index maps, decided over the 128 grid points: the sample window and the result window are at block row
    `t`, the three parameter windows stay at block `(0, 0)`. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem point_lt (t : Fin cfg0.N) : t.val < 128 := lt_of_lt_of_eq t.isLt N_0

/-- The sample row that row `p` of point `t`'s block is. -/
def rowOf (t : Fin cfg0.N) (p : Fin 8192) : Fin 1048576 :=
  ⟨t.val * 8192 + p.val, by have := point_lt t; have := p.isLt; omega⟩

/-- Row `p` of the sample block at point `t` is sample `8192·t + p`. -/
theorem sampleBlock_apply (c : Dev nD) (t : Fin cfg0.N) (p : Fin 8192) (k : Fin 32) :
    (iblk m c 0 t : Vec Ideal S8192x32 .f32) (ix2 p k)
      = samples m c (ix2 (rowOf t p) k) := by
  obtain ⟨e0, e1, -⟩ := index_maps t
  unfold iblk
  rw [View.read_apply]
  show V m c main_arg0 _ = _
  rw [V_main_arg0]
  refine congrArg (samples m c) (funext fun a => Fin.ext ?_)
  match a with
  | ⟨0, _⟩ => show win0_0.index t (0 : Fin 2) * 8192 + 1 * p.val = t.val * 8192 + p.val; rw [e0]; omega
  | ⟨1, _⟩ => show win0_0.index t (1 : Fin 2) * 32 + 1 * k.val = k.val; rw [e1]; omega

/-- The transposed-centre block at any point is the whole transposed-centre matrix. -/
theorem centreBlock_apply (c : Dev nD) (t : Fin cfg0.N) (k : Fin 32) (q : Fin 128) :
    (iblk m c 1 t : Vec Ideal S32x128 .f32) (ix2 k q)
      = centres m c (ix2 q k) := by
  obtain ⟨-, -, e0, e1, -⟩ := index_maps t
  unfold iblk
  rw [View.read_apply]
  show centresT m c _ = _
  refine Eq.trans (congrArg (centresT m c) (funext fun a => Fin.ext ?_)) (centresT_apply m c k q)
  match a with
  | ⟨0, _⟩ => show win0_1.index t (0 : Fin 2) * 32 + 1 * k.val = k.val; rw [e0]; omega
  | ⟨1, _⟩ => show win0_1.index t (1 : Fin 2) * 128 + 1 * q.val = q.val; rw [e1]; omega

/-- The centre-norm block at any point is the whole row of centre norms. -/
theorem normBlock_apply (c : Dev nD) (t : Fin cfg0.N) (q : Fin 128) :
    (iblk m c 2 t : Vec Ideal S1x128 .f32) (ix2 (0 : Fin 1) q)
      = ∑ k : Fin 32, centres m c (ix2 q k) * centres m c (ix2 q k) := by
  obtain ⟨-, -, -, -, e0, e1, -⟩ := index_maps t
  unfold iblk
  rw [View.read_apply]
  show centreNorms m c _ = _
  refine Eq.trans (congrArg (centreNorms m c) (funext fun a => Fin.ext ?_)) (centreNorm_apply m c q)
  match a with
  | ⟨0, _⟩ => show win0_2.index t (0 : Fin 2) * 1 + 1 * 0 = 0; rw [e0]
  | ⟨1, _⟩ => show win0_2.index t (1 : Fin 2) * 128 + 1 * q.val = q.val; rw [e1]; omega

/-- The inverse-variance block at any point is the whole row of inverse variances. -/
theorem varBlock_apply (c : Dev nD) (t : Fin cfg0.N) (q : Fin 128) :
    (iblk m c 3 t : Vec Ideal S1x128 .f32) (ix2 (0 : Fin 1) q)
      = Ideal.exp (Ideal.ofBits .f32 0xC0000000#32 * logSigmas m c (ix1 q)) := by
  obtain ⟨-, -, -, -, -, -, e0, e1, -⟩ := index_maps t
  unfold iblk
  rw [View.read_apply]
  show invVars m c _ = _
  refine Eq.trans (congrArg (invVars m c) (funext fun a => Fin.ext ?_)) (invVar_apply m c q)
  match a with
  | ⟨0, _⟩ => show win0_3.index t (0 : Fin 2) * 1 + 1 * 0 = 0; rw [e0]
  | ⟨1, _⟩ => show win0_3.index t (1 : Fin 2) * 128 + 1 * q.val = q.val; rw [e1]; omega

/-- The result array, as one function of the argument arrays at launch. -/
abbrev result (c : Dev nD) : FVec Ideal S1048576x128 .f32 :=
  Cert.Rbf.rbf (samples m c) (centres m c) (logSigmas m c)

/-- WHAT POINT `t` WRITES BACK is block `t` of the radial-basis function of the argument arrays. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zeros2]
  simp only [View.ld_unit_zero (S := S8192x32) zeros2, View.ld_unit_zero (S := S32x128) zeros2, View.ld_unit_zero (S := S1x128) zeros2]
  obtain ⟨-, -, -, -, -, -, -, -, e0, e1⟩ := index_maps t
  funext j
  obtain ⟨p, q, rfl⟩ : ∃ (p : Fin 8192) (q : Fin 128), j = ix2 p q := ⟨j 0, j 1, eq_ix2 j⟩
  show k0_pay1 (F := Ideal) (iblk m c 0 t) (iblk m c 1 t) (iblk m c 2 t) (iblk m c 3 t) (ix2 p q)
    = result m c (((cfg0.win 4).blk t).view.emb (ix2 p q))
  have hemb : ((cfg0.win 4).blk t).view.emb (ix2 p q) = ix2 (rowOf t p) q := by
    funext a; apply Fin.ext
    match a with
    | ⟨0, _⟩ => show win0_4.index t (0 : Fin 2) * 8192 + 1 * p.val = t.val * 8192 + p.val; rw [e0]; omega
    | ⟨1, _⟩ => show win0_4.index t (1 : Fin 2) * 128 + 1 * q.val = q.val; rw [e1]; omega
  rw [hemb]
  exact point_eq (samples m c) (centres m c) (logSigmas m c)
    (iblk m c 0 t) (iblk m c 1 t) (iblk m c 2 t) (iblk m c 3 t) (rowOf t p) p q
    (fun k => sampleBlock_apply m c t p k) (fun k => centreBlock_apply m c t k q) (normBlock_apply m c t q) (varBlock_apply m c t q)

/-- An index of the array is in point `t`'s block iff each coordinate is in the block's range on its axis. -/
theorem mem_block (t : Fin cfg0.N) (i : S1048576x128.Idx) :
    i ∈ ((cfg0.win 4).blk t).view.set ↔ ∀ a : Fin 2, win0_4.index t a * S8192x128.size a ≤ (i a).val ∧ (i a).val < win0_4.index t a * S8192x128.size a + S8192x128.size a := by
  show i ∈ ((View.whole main_v8).slice (win0_4.rect t)).set ↔ _
  rw [View.set_slice_whole, Rect.mem_set_unit]
  exact Iff.rfl

/-- THE BLOCKS FILL THE ARRAY: sample row `n` lies in the block of point `n / 8192`. -/
theorem covered (i : S1048576x128.Idx) :
    ∃ t : Fin cfg0.N, (cfg0.win 4).flush t = true ∧ i ∈ ((cfg0.win 4).blk t).view.set := by
  have hi0 : (i 0).val < 1048576 := (i 0).isLt
  have hi1 : (i 1).val < 128 := (i 1).isLt
  have ht : (i 0).val / 8192 < cfg0.N := lt_of_lt_of_eq (by omega : (i 0).val / 8192 < 128) N_0.symm
  obtain ⟨-, -, -, -, -, -, -, -, e0, e1⟩ := index_maps ⟨(i 0).val / 8192, ht⟩
  refine ⟨⟨(i 0).val / 8192, ht⟩, flush0_4 _, ?_⟩
  rw [mem_block]
  intro a
  match a with
  | ⟨0, _⟩ =>
    show win0_4.index ⟨(i 0).val / 8192, ht⟩ (0 : Fin 2) * 8192 ≤ (i 0).val
      ∧ (i 0).val < win0_4.index ⟨(i 0).val / 8192, ht⟩ (0 : Fin 2) * 8192 + 8192
    rw [e0]; show (i 0).val / 8192 * 8192 ≤ (i 0).val ∧ (i 0).val < (i 0).val / 8192 * 8192 + 8192; omega
  | ⟨1, _⟩ =>
    show win0_4.index ⟨(i 0).val / 8192, ht⟩ (1 : Fin 2) * 128 ≤ (i 1).val
      ∧ (i 1).val < win0_4.index ⟨(i 0).val / 8192, ht⟩ (1 : Fin 2) * 128 + 128
    rw [e1]; omega

/-- THE ARRAY after the run is the radial-basis function of the argument arrays. -/
theorem final (c : Dev nD) : (dats m 0 c).arrAt 4 cfg0.N = result m c :=
  (dats m 0 c).arrAt_eq_of_cover 4 (result m c) (fun t _ => flushed_eq m c t) covered

/-- The kernel's run, read: the result array at the radial-basis function of the arguments, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.KValue

end
-- ==== Proof.lean ====
/-
  The radial-basis layer `out[n, o] = exp(−max(‖x_n − c_o‖², 0) · exp(−2·log σ_o))` over 1048576 samples of 32 features and
  128 centres, with the squared distance expanded as `(‖x_n‖² − 2·⟨x_n, c_o⟩) + ‖c_o‖²`.

  The kernel walks the samples in 128 blocks of 8192 rows. The host first transposes the centres and lays the centre
  norms and the inverse variances as two rows of 128; each grid point then forms its block's row norms by a sum along
  the features, the inner products by one matrix product with the transposed centres, and writes back 8192 rows of the
  result. The reference computes the same three sums over the whole arrays (a row sum, a row sum, and a contraction of
  the two feature axes) and the same pointwise chain.

  On the extended reals the two programs are one function, `Cert.Rbf.rbf` (Proof/RbfSpec.lean):
    • a sum along an axis is the same finite sum whichever unit forms it, and starts from `0`;
    • the matrix product with the transposed centres and the contraction `ni,oi→no` sum the same 32 products;
    • the kernel's `0 − y` is the reference's `−y`;
    • every literal (`2`, `0`, `−2`) is the same word on both sides.
  No step moves a factor across a sum or cancels, so finiteness of the inputs is never used.

  Proof/RefIsRbf.lean reads the reference's stages at an index; Proof/KernelPayload.lean the value one grid point stores,
  at a row and a centre of its block; Proof/HostGlue.lean the three arrays the host prepares; Proof/KernelArray.lean puts
  the 128 blocks together into the whole result array. Here the two runs are set side by side. The idealized kernel is
  the kernel's own text (nothing was rewritten), so there is nothing to preserve.
-/
import proofs.«165748_j84808424227154_2_alg».proof.Defs
import proofs.«165748_j84808424227154_2_alg».proof.Proof.Gen.Kernel
import proofs.«165748_j84808424227154_2_alg».proof.Proof.Gen.Kernel.Skeleton
import proofs.«165748_j84808424227154_2_alg».proof.Proof.Gen.Kernel.Launch
import proofs.«165748_j84808424227154_2_alg».proof.Proof.Gen.Kernel.Points
import proofs.«165748_j84808424227154_2_alg».proof.Proof.Gen.Kernel.Frame
import proofs.«165748_j84808424227154_2_alg».proof.Proof.Gen.KernelIdeal
import proofs.«165748_j84808424227154_2_alg».proof.Proof.Gen.KernelIdeal.Skeleton
import proofs.«165748_j84808424227154_2_alg».proof.Proof.Gen.KernelIdeal.Launch
import proofs.«165748_j84808424227154_2_alg».proof.Proof.Gen.KernelIdeal.Points
import proofs.«165748_j84808424227154_2_alg».proof.Proof.Gen.KernelIdeal.Frame
import proofs.«165748_j84808424227154_2_alg».proof.Proof.Gen.ReferenceIdeal
import proofs.«165748_j84808424227154_2_alg».proof.Proof.Gen.Pre_finite_inputs
import proofs.«165748_j84808424227154_2_alg».proof.Proof.Gen.KernelIdeal.Value
import proofs.«165748_j84808424227154_2_alg».proof.Proof.Gen.ReferenceIdeal.Run
import proofs.«165748_j84808424227154_2_alg».proof.Proof.Gen.ReferenceIdeal.Read
import proofs.«165748_j84808424227154_2_alg».proof.Proof.RbfSpec
import proofs.«165748_j84808424227154_2_alg».proof.Proof.RefIsRbf
import proofs.«165748_j84808424227154_2_alg».proof.Proof.KernelArray
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel's result array ends at the radial-basis function of its arguments (the 128
    blocks put together) and the reference's result at its last stage of its arguments, which is the same function. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
